-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x12x1024x64 : Shape := ⟨4, ![8, 12, 1024, 64]⟩
abbrev S8x1024 : Shape := ⟨2, ![8, 1024]⟩
abbrev S_ : Shape := ⟨0, ![]⟩

class Facts : Prop where
  bcast_S_S8x12x1024x64 : S_.BroadcastsInDim S8x12x1024x64 (![] : Fin 0 → Fin S8x12x1024x64.rank)
  reducesTo_S8x12x1024x64_S_d0_1_2_3 : S8x12x1024x64.ReducesTo [0, 1, 2, 3] S_
  h_S_ : 0 < S_.numel

variable [Facts]

def fn {F : FTy → Type} [FloatOps F] (main_arg0 : FVec F S8x12x1024x64 .f32) (main_arg1 : FVec F S8x12x1024x64 .f32) (main_arg2 : FVec F S8x12x1024x64 .f32) (main_arg3 : IVec S8x1024 32) : IVec S_ 1 :=
  let main_v0 : FVec F S8x12x1024x64 .f32 := Host.absf main_arg0
  let main_cst : FVec F S_ .f32 := constant S_ .f32 0x7F800000#32
  let main_v1 : FVec F S8x12x1024x64 .f32 := broadcastInDim S8x12x1024x64 ![] bcast_S_S8x12x1024x64 main_cst
  let main_v2 : IVec S8x12x1024x64 1 := cmpf .olt main_v0 main_v1
  let main_c : IVec S_ 1 := constantI S_ 1 1#1
  let main_v3 : IVec S_ 1 := (fun x v => Host.reduce IntOp.andi x v reducesTo_S8x12x1024x64_S_d0_1_2_3 h_S_) main_v2 main_c
  let main_v4 : FVec F S8x12x1024x64 .f32 := Host.absf main_arg1
  let main_cst_0 : FVec F S_ .f32 := constant S_ .f32 0x7F800000#32
  let main_v5 : FVec F S8x12x1024x64 .f32 := broadcastInDim S8x12x1024x64 ![] bcast_S_S8x12x1024x64 main_cst_0
  let main_v6 : IVec S8x12x1024x64 1 := cmpf .olt main_v4 main_v5
  let main_c_1 : IVec S_ 1 := constantI S_ 1 1#1
  let main_v7 : IVec S_ 1 := (fun x v => Host.reduce IntOp.andi x v reducesTo_S8x12x1024x64_S_d0_1_2_3 h_S_) main_v6 main_c_1
  let main_v8 : IVec S_ 1 := andi main_v3 main_v7
  let main_v9 : FVec F S8x12x1024x64 .f32 := Host.absf main_arg2
  let main_cst_2 : FVec F S_ .f32 := constant S_ .f32 0x7F800000#32
  let main_v10 : FVec F S8x12x1024x64 .f32 := broadcastInDim S8x12x1024x64 ![] bcast_S_S8x12x1024x64 main_cst_2
  let main_v11 : IVec S8x12x1024x64 1 := cmpf .olt main_v9 main_v10
  let main_c_3 : IVec S_ 1 := constantI S_ 1 1#1
  let main_v12 : IVec S_ 1 := (fun x v => Host.reduce IntOp.andi x v reducesTo_S8x12x1024x64_S_d0_1_2_3 h_S_) main_v11 main_c_3
  let main_v13 : IVec S_ 1 := andi main_v8 main_v12
  main_v13
-- ==== Kernel.lean ====
abbrev S8x12x1024x64 : Shape := ⟨4, ![8, 12, 1024, 64]⟩
abbrev S8x1024 : Shape := ⟨2, ![8, 1024]⟩
abbrev S_ : Shape := ⟨0, ![]⟩
abbrev S8x1x1024 : Shape := ⟨3, ![8, 1, 1024]⟩
abbrev S8x12x1024x1024 : Shape := ⟨4, ![8, 12, 1024, 1024]⟩
abbrev S1x1x1024x64 : Shape := ⟨4, ![1, 1, 1024, 64]⟩
abbrev S1x1x1024 : Shape := ⟨3, ![1, 1, 1024]⟩
abbrev S1x1x1024x1024 : Shape := ⟨4, ![1, 1, 1024, 1024]⟩
abbrev S1024x64 : Shape := ⟨2, ![1024, 64]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 14
  | .vmem => 12
  | .smem => 0
  | _ => 0

abbrev bufTy : (tb : Table) → Fin (tcTables nBuf tb) → BufTy
  | .hbm, ⟨0, _⟩ => ⟨S8x12x1024x64, .f32⟩
  | .hbm, ⟨1, _⟩ => ⟨S8x12x1024x64, .f32⟩
  | .hbm, ⟨2, _⟩ => ⟨S8x12x1024x64, .f32⟩
  | .hbm, ⟨3, _⟩ => ⟨S8x1024, .i32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1x1024, .f32⟩
  | .hbm, ⟨12, _⟩ => ⟨S8x12x1024x64, .f32⟩
  | .hbm, ⟨13, _⟩ => ⟨S8x12x1024x1024, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024x64, .f32⟩
  | .local _ .vmem, ⟨9, _⟩ => ⟨S1x1x1024x64, .f32⟩
  | .local _ .vmem, ⟨10, _⟩ => ⟨S1x1x1024x1024, .f32⟩
  | .local _ .vmem, ⟨11, _⟩ => ⟨S1x1x1024x1024, .f32⟩
  | _, _ => ⟨S8x12x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 12], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S8x1024 : S_.BroadcastsInDim S8x1024 (![] : Fin 0 → Fin S8x1024.rank)
  bcast_S8x1024_S8x1x1024_0_2 : S8x1024.BroadcastsInDim S8x1x1024 (![0, 2] : Fin 2 → Fin S8x1x1024.rank)
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  bitsLt_bf16_f32 : FTy.bits .bf16 < FTy.bits .f32
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  shapeCasts_S1024x1024_S1x1x1024x1024 : S1024x1024.ShapeCasts S1x1x1024x1024
  shapeCasts_S1024x64_S1x1x1024x64 : S1024x64.ShapeCasts S1x1x1024x64
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S8x12x1024x64.size a
  hwx0_0 : ∀ i : grid0.Coords, EltTy.bits .f32 = 32 ∨ (Rect.block (s := S8x12x1024x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S8x12x1024x64.size a
  hwx0_1 : ∀ i : grid0.Coords, EltTy.bits .f32 = 32 ∨ (Rect.block (s := S8x12x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S8x12x1024x64.size a
  hwx0_2 : ∀ i : grid0.Coords, EltTy.bits .f32 = 32 ∨ (Rect.block (s := S8x12x1024x64) S1x1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x1024.size a
  hwx0_3 : ∀ i : grid0.Coords, EltTy.bits .f32 = 32 ∨ (Rect.block (s := S8x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S8x12x1024x64.size a
  hwx0_4 : ∀ i : grid0.Coords, EltTy.bits .f32 = 32 ∨ (Rect.block (s := S8x12x1024x64) S1x1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x1024.size a ≤ S8x12x1024x1024.size a
  hwx0_5 : ∀ i : grid0.Coords, EltTy.bits .f32 = 32 ∨ (Rect.block (s := S8x12x1024x1024) S1x1x1024x1024.size (cc0_transform_5 i) (hinb0_5 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1x1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x12x1024x64 : Shape := ⟨4, ![8, 12, 1024, 64]⟩
abbrev S8x1024 : Shape := ⟨2, ![8, 1024]⟩
abbrev S8x12x1024x1024 : Shape := ⟨4, ![8, 12, 1024, 1024]⟩
abbrev S_ : Shape := ⟨0, ![]⟩
abbrev S8x1x1x1024 : Shape := ⟨4, ![8, 1, 1, 1024]⟩
abbrev S8x12x1024 : Shape := ⟨3, ![8, 12, 1024]⟩
abbrev S8x12x1024x1 : Shape := ⟨4, ![8, 12, 1024, 1]⟩

abbrev nBuf : Space → Nat
  | .hbm => 28
  | .vmem => 0
  | .smem => 0
  | _ => 0

abbrev bufTy : (tb : Table) → Fin (tcTables nBuf tb) → BufTy
  | .hbm, ⟨0, _⟩ => ⟨S8x12x1024x64, .f32⟩
  | .hbm, ⟨1, _⟩ => ⟨S8x12x1024x64, .f32⟩
  | .hbm, ⟨2, _⟩ => ⟨S8x12x1024x64, .f32⟩
  | .hbm, ⟨3, _⟩ => ⟨S8x1024, .i32⟩
  | .hbm, ⟨4, _⟩ => ⟨S8x12x1024x1024, .f32⟩
  | .hbm, ⟨5, _⟩ => ⟨S_, .f32⟩
  | .hbm, ⟨6, _⟩ => ⟨S8x12x1024x1024, .f32⟩
  | .hbm, ⟨7, _⟩ => ⟨S8x12x1024x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1x1x1024, .f32⟩
  | .hbm, ⟨13, _⟩ => ⟨S_, .f32⟩
  | .hbm, ⟨14, _⟩ => ⟨S8x1x1x1024, .f32⟩
  | .hbm, ⟨15, _⟩ => ⟨S8x1x1x1024, .f32⟩
  | .hbm, ⟨16, _⟩ => ⟨S8x12x1024x1024, .f32⟩
  | .hbm, ⟨17, _⟩ => ⟨S8x12x1024x1024, .f32⟩
  | .hbm, ⟨18, _⟩ => ⟨S8x12x1024x1024, .f32⟩
  | .hbm, ⟨19, _⟩ => ⟨S_, .f32⟩
  | .hbm, ⟨20, _⟩ => ⟨S8x12x1024, .f32⟩
  | .hbm, ⟨21, _⟩ => ⟨S8x12x1024x1, .f32⟩
  | .hbm, ⟨22, _⟩ => ⟨S_, .f32⟩
  | .hbm, ⟨23, _⟩ => ⟨S8x12x1024x1, .f32⟩
  | .hbm, ⟨24, _⟩ => ⟨S8x12x1024x1, .f32⟩
  | .hbm, ⟨25, _⟩ => ⟨S8x12x1024x1024, .f32⟩
  | .hbm, ⟨26, _⟩ => ⟨S8x12x1024x1024, .f32⟩
  | .hbm, ⟨27, _⟩ => ⟨S8x12x1024x64, .f32⟩
  | _, _ => ⟨S8x12x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S8x12x1024x1024 : S_.BroadcastsInDim S8x12x1024x1024 (![] : Fin 0 → Fin S8x12x1024x1024.rank)
  bcast_S_S8x1024 : S_.BroadcastsInDim S8x1024 (![] : Fin 0 → Fin S8x1024.rank)
  bcast_S8x1024_S8x1x1x1024_0_3 : S8x1024.BroadcastsInDim S8x1x1x1024 (![0, 3] : Fin 2 → Fin S8x1x1x1024.rank)
  bcast_S_S8x1x1x1024 : S_.BroadcastsInDim S8x1x1x1024 (![] : Fin 0 → Fin S8x1x1x1024.rank)
  bcast_S8x1x1x1024_S8x12x1024x1024_0_1_2_3 : S8x1x1x1024.BroadcastsInDim S8x12x1024x1024 (![0, 1, 2, 3] : Fin 4 → Fin S8x12x1024x1024.rank)
  reducesTo_S8x12x1024x1024_S8x12x1024_d3 : S8x12x1024x1024.ReducesTo [3] S8x12x1024
  h_S_ : 0 < S_.numel
  bcast_S8x12x1024_S8x12x1024x1_0_1_2 : S8x12x1024.BroadcastsInDim S8x12x1024x1 (![0, 1, 2] : Fin 3 → Fin S8x12x1024x1.rank)
  bcast_S_S8x12x1024x1 : S_.BroadcastsInDim S8x12x1024x1 (![] : Fin 0 → Fin S8x12x1024x1.rank)
  bcast_S8x12x1024x1_S8x12x1024x1024_0_1_2_3 : S8x12x1024x1.BroadcastsInDim S8x12x1024x1024 (![0, 1, 2, 3] : Fin 4 → Fin S8x12x1024x1024.rank)
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]

variable [Facts₀]

def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf

class Facts : Prop extends Facts₀ where

variable [Facts]
-- ==== Proof.Spec.lean ====
/-
  Power attention with exponent two, as one function of the argument arrays over the extended reals.

  For batch `b`, head `h`, query position `i` and key position `j` the masked score is
  `s j = (∑ d, q[b,h,i,d] · k[b,h,j,d]) · (1/8) + (1 − mask[b,j]) · (−10000)`; the weight of key `j` is
  `s j ² / (∑ j', s j' ² + ε)` and the output row is `∑ j, weight j · v[b,h,j,·]`.
  Two spellings of this meet here. One scales the query row before the contraction and multiplies the squared
  score by the reciprocal of the row's denominator; the other scales the contraction and divides. They agree on
  every extended real, with no finiteness assumed: multiplying by the nonnegative finite constant `1/8`
  distributes over any sum of extended reals, and the denominator is a sum of squares plus a positive constant, so
  it is never zero and division by it is multiplication by its inverse.
-/
import Idealize.ShloMosaic.PureOps.Ideal
import Idealize.ShloMosaic.Lib.ValueIdx

noncomputable section

namespace Cert.PowerAttn

open Idealize.ShloMosaic Idealize.ShloMosaic.ValueIdx

/-! ## The three constants -/

/-- The pattern of `1.0` denotes `1`. -/
theorem ofBits_one : Ideal.ofBits .f32 0x3F800000#32 = 1 := by
  simp [Ideal.ofBits, Ideal.ieee, -EReal.coe_mul]; norm_num

/-- The score scale `0.125` denotes the real `1/8`. -/
theorem ofBits_eighth : Ideal.ofBits .f32 0x3E000000#32 = ((1 / 8 : ℝ) : EReal) := by
  simp [Ideal.ofBits, Ideal.ieee, -EReal.coe_mul]; norm_num

theorem eighth_nonneg : (0 : EReal) ≤ Ideal.ofBits .f32 0x3E000000#32 := by
  rw [ofBits_eighth]; exact EReal.coe_nonneg.mpr (by norm_num)

theorem eighth_ne_top : Ideal.ofBits .f32 0x3E000000#32 ≠ ⊤ := by
  rw [ofBits_eighth]; exact EReal.coe_ne_top _

/-- The denominator's guard (the float nearest `1e-6`) denotes a positive real. -/
theorem guard_pos : (0 : EReal) < Ideal.ofBits .f32 0x358637BD#32 := by
  have h : Ideal.ofBits .f32 0x358637BD#32 = ((8796093 * (2 : ℝ) ^ (-43 : ℤ) : ℝ) : EReal) := by
    simp [Ideal.ofBits, Ideal.ieee, -EReal.coe_mul]
  rw [h]; exact EReal.coe_pos.mpr (by positivity)

/-! ## Scaling distributes over a sum; a sum of squares plus the guard is positive -/

/-- Multiplication by a nonnegative finite extended real distributes over a finite sum, infinite terms included. -/
theorem sum_mul_of_nonneg {ι : Type} (s : Finset ι) (f : ι → EReal) {c : EReal} (hc : 0 ≤ c) (hc' : c ≠ ⊤) :
    (∑ d ∈ s, f d) * c = ∑ d ∈ s, f d * c := by
  classical
  induction s using Finset.induction_on with
  | empty => simp
  | insert a s ha ih =>
    rw [Finset.sum_insert ha, Finset.sum_insert ha, EReal.right_distrib_of_nonneg_of_ne_top hc hc', ih]

/-- The scores law: scaling each query entry before the contraction is scaling the contraction. -/
theorem scaled_contraction {ι : Type} [Fintype ι] (x y : ι → EReal) :
    (∑ d, x d * y d) * Ideal.ofBits .f32 0x3E000000#32
      = ∑ d, (x d * Ideal.ofBits .f32 0x3E000000#32) * y d := by
  rw [sum_mul_of_nonneg _ _ eighth_nonneg eighth_ne_top]
  exact Finset.sum_congr rfl fun d _ => mul_right_comm _ _ _

/-- A square of an extended real is nonnegative (the infinities square to `⊤`). -/
theorem mul_self_nonneg' (x : EReal) : 0 ≤ x * x :=
  EReal.mul_nonneg_iff.mpr ((le_total 0 x).elim (fun h => Or.inl ⟨h, h⟩) (fun h => Or.inr ⟨h, h⟩))

/-- The denominator of a row of scores: the sum of their squares plus the guard. -/
def rowDen (s : Fin 1024 → EReal) : EReal :=
  (∑ j : Fin 1024, s j * s j) + Ideal.ofBits .f32 0x358637BD#32

theorem rowDen_pos (s : Fin 1024 → EReal) : 0 < rowDen s :=
  lt_of_lt_of_le guard_pos (le_add_of_nonneg_left (Finset.sum_nonneg fun j _ => mul_self_nonneg' (s j)))

/-- Off zero, a quotient is the numerator times the reciprocal `1 / y`. -/
theorem div_eq_mul_one_div {y : EReal} (hy : y ≠ 0) (x : EReal) :
    Ideal.div x y = x * Ideal.div (Ideal.ofBits .f32 0x3F800000#32) y := by
  rw [Ideal.div, if_neg hy, Ideal.div, if_neg hy, ofBits_one, one_mul]

/-! ## The result as one function of the arguments -/

/-- `[8, 12, 1024, 64]`: queries, keys, values and the output. -/
abbrev SQ : Shape := ⟨4, ![8, 12, 1024, 64]⟩
/-- `[8, 1024]`: the integer padding mask. -/
abbrev SM : Shape := ⟨2, ![8, 1024]⟩
/-- `[8, 12, 1024, 1024]`: the weights. -/
abbrev SP : Shape := ⟨4, ![8, 12, 1024, 1024]⟩

/-- What the padding mask adds to every score against key `j` of batch `b`: `(1 − mask) · (−10000)`. -/
def maskTerm (a : SM.Idx → BitVec 32) (b : Fin 8) (j : Fin 1024) : EReal :=
  (Ideal.ofBits .f32 0x3F800000#32 - (((a (ix2 b j)).toInt : ℝ) : EReal)) * Ideal.ofBits .f32 0xC61C4000#32

/-- The masked score of query `i` against key `j`, the query row scaled before the contraction; `μ b j` is what the
    mask adds. -/
def score (q k : SQ.Idx → EReal) (μ : Fin 8 → Fin 1024 → EReal) (b : Fin 8) (h : Fin 12) (i j : Fin 1024) : EReal :=
  (∑ d : Fin 64, (q (ix4 b h i d) * Ideal.ofBits .f32 0x3E000000#32) * k (ix4 b h j d)) + μ b j

/-- The weight of key `j` in a row of scores: its square times the reciprocal of the row's denominator. -/
def weight (s : Fin 1024 → EReal) (j : Fin 1024) : EReal :=
  (s j * s j) * Ideal.div (Ideal.ofBits .f32 0x3F800000#32) (rowDen s)

/-- The same weight as a quotient. -/
theorem weight_eq_div (s : Fin 1024 → EReal) (j : Fin 1024) : Ideal.div (s j * s j) (rowDen s) = weight s j :=
  div_eq_mul_one_div (rowDen_pos s).ne' _

/-- The weight array at `(b, h, i, j)`. -/
def probAt (q k : SQ.Idx → EReal) (μ : Fin 8 → Fin 1024 → EReal) (b : Fin 8) (h : Fin 12) (i j : Fin 1024) : EReal :=
  weight (fun j' => score q k μ b h i j') j

/-- The output array at `(b, h, i, d)`: the weights of row `i` against column `d` of the values. -/
def outAt (q k v : SQ.Idx → EReal) (μ : Fin 8 → Fin 1024 → EReal) (b : Fin 8) (h : Fin 12) (i : Fin 1024) (d : Fin 64) : EReal :=
  ∑ j : Fin 1024, probAt q k μ b h i j * v (ix4 b h j d)

/-- The weights as a whole array. -/
def probs (q k : SQ.Idx → EReal) (μ : Fin 8 → Fin 1024 → EReal) : SP.Idx → EReal :=
  fun x => probAt q k μ (x 0) (x 1) (x 2) (x 3)

/-- The output as a whole array. -/
def attn (q k v : SQ.Idx → EReal) (μ : Fin 8 → Fin 1024 → EReal) : SQ.Idx → EReal :=
  fun x => outAt q k v μ (x 0) (x 1) (x 2) (x 3)

/-- The weight array at an index whose coordinates are `b, h, i, j`. -/
theorem probs_of_val (q k : SQ.Idx → EReal) (μ : Fin 8 → Fin 1024 → EReal) (x : SP.Idx) (b : Fin 8) (h : Fin 12)
    (i j : Fin 1024) (h0 : (x 0).val = b.val) (h1 : (x 1).val = h.val) (h2 : (x 2).val = i.val) (h3 : (x 3).val = j.val) :
    probs q k μ x = probAt q k μ b h i j := by
  have e : x = ix4 b h i j := funext fun a => Fin.ext (by
    match a with
    | ⟨0, _⟩ => exact h0
    | ⟨1, _⟩ => exact h1
    | ⟨2, _⟩ => exact h2
    | ⟨3, _⟩ => exact h3)
  rw [e]; rfl

/-- The output array at an index whose coordinates are `b, h, i, d`. -/
theorem attn_of_val (q k v : SQ.Idx → EReal) (μ : Fin 8 → Fin 1024 → EReal) (x : SQ.Idx) (b : Fin 8) (h : Fin 12)
    (i : Fin 1024) (d : Fin 64) (h0 : (x 0).val = b.val) (h1 : (x 1).val = h.val) (h2 : (x 2).val = i.val)
    (h3 : (x 3).val = d.val) : attn q k v μ x = outAt q k v μ b h i d := by
  have e : x = ix4 b h i d := funext fun a => Fin.ext (by
    match a with
    | ⟨0, _⟩ => exact h0
    | ⟨1, _⟩ => exact h1
    | ⟨2, _⟩ => exact h2
    | ⟨3, _⟩ => exact h3)
  rw [e]; rfl

end Cert.PowerAttn

end
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.KernelPoint.lean ====
/-
  One grid point of the kernel, read at an index. The point's blocks are a `[1024, 64]` block of queries, of keys and
  of values (each carried with two leading unit axes) and a `[1024]` row of mask terms (with two leading unit axes).
  The scores block is the product of the scaled query block with the transposed key block plus the mask row spread
  over the query rows; the weights block squares it and multiplies each row by the reciprocal of that row's sum of
  squares plus the guard; the output block is the product of the weights block with the value block. Entry by entry
  these are the row formulas `PowerAttn.weight` of the scores row, and its sum against a value column.
-/
import proofs.«171787_j47691316855178_2_alg».proof.Proof.Gen.KernelIdeal.Skeleton
import proofs.«171787_j47691316855178_2_alg».proof.Proof.Spec
import proofs.«171787_j47691316855178_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Point

open Cert.KernelIdeal Idealize.ShloMosaic Idealize.ShloMosaic.ValueIdx Cert.PowerAttn
open Cert.KernelIdeal.Facts₀

/-! ## The two products at an index -/

/-- The left operand's row is the result's row (query–key product). -/
theorem qk_lhs0 (x : S1024x1024.Idx) (q : dot_S1024x64_S1024x64_S1024x1024_1_1_0_0_n_n.contr.Idx) : (dot_S1024x64_S1024x64_S1024x1024_1_1_0_0_n_n.lhsIdx x q 0).val = (x 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem qk_lhs1 (x : S1024x1024.Idx) (q : dot_S1024x64_S1024x64_S1024x1024_1_1_0_0_n_n.contr.Idx) : (dot_S1024x64_S1024x64_S1024x1024_1_1_0_0_n_n.lhsIdx x q 1).val = (q ⟨0, by decide⟩).val :=
  dot_S1024x64_S1024x64_S1024x1024_1_1_0_0_n_n.lhsIdx_val_of_single rfl x q
/-- The right operand's row is the result's column (the key block enters transposed). -/
theorem qk_rhs0 (x : S1024x1024.Idx) (q : dot_S1024x64_S1024x64_S1024x1024_1_1_0_0_n_n.contr.Idx) : (dot_S1024x64_S1024x64_S1024x1024_1_1_0_0_n_n.rhsIdx x q 0).val = (x 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem qk_rhs1 (x : S1024x1024.Idx) (q : dot_S1024x64_S1024x64_S1024x1024_1_1_0_0_n_n.contr.Idx) : (dot_S1024x64_S1024x64_S1024x1024_1_1_0_0_n_n.rhsIdx x q 1).val = (q ⟨0, by decide⟩).val :=
  dot_S1024x64_S1024x64_S1024x1024_1_1_0_0_n_n.rhsIdx_val_of_single rfl x q

/-- The query–key product (both operands contracted along their second axis) at `(i, j)`: the sum over the feature
    coordinate of row `i` of the left operand times row `j` of the right. -/
theorem qk_apply (A B : FVec Ideal S1024x64 .bf16) (i j : Fin 1024) :
    matmul dot_S1024x64_S1024x64_S1024x1024_1_1_0_0_n_n none A B (constant S1024x1024 .f32 0x00000000#32) (ix2 i j)
      = ∑ d : Fin 64, A (ix2 i d) * B (ix2 j d) := by
  refine (Ideal.matmul_constant_zero_apply dot_S1024x64_S1024x64_S1024x1024_1_1_0_0_n_n none A B (ix2 i j)).trans ?_
  rw [← Equiv.sum_comp (contrEquiv1 dot_S1024x64_S1024x64_S1024x1024_1_1_0_0_n_n 64 rfl rfl).symm]
  refine Finset.sum_congr rfl fun d _ => ?_
  have hk := contrEquiv1_symm_val dot_S1024x64_S1024x64_S1024x1024_1_1_0_0_n_n 64 rfl rfl d
  have el : dot_S1024x64_S1024x64_S1024x1024_1_1_0_0_n_n.lhsIdx (ix2 i j) ((contrEquiv1 dot_S1024x64_S1024x64_S1024x1024_1_1_0_0_n_n 64 rfl rfl).symm d) = ix2 i d := funext fun a => Fin.ext (by
    match a with
    | ⟨0, _⟩ => exact qk_lhs0 _ _
    | ⟨1, _⟩ => exact (qk_lhs1 _ _).trans hk)
  have er : dot_S1024x64_S1024x64_S1024x1024_1_1_0_0_n_n.rhsIdx (ix2 i j) ((contrEquiv1 dot_S1024x64_S1024x64_S1024x1024_1_1_0_0_n_n 64 rfl rfl).symm d) = ix2 j d := funext fun a => Fin.ext (by
    match a with
    | ⟨0, _⟩ => exact qk_rhs0 _ _
    | ⟨1, _⟩ => exact (qk_rhs1 _ _).trans hk)
  rw [el, er]

/-- The left operand's row is the result's row (weights–values product). -/
theorem pv_lhs0 (x : S1024x64.Idx) (q : dot_S1024x1024_S1024x64_S1024x64_1_0_0_1_n_n.contr.Idx) : (dot_S1024x1024_S1024x64_S1024x64_1_0_0_1_n_n.lhsIdx x q 0).val = (x 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem pv_lhs1 (x : S1024x64.Idx) (q : dot_S1024x1024_S1024x64_S1024x64_1_0_0_1_n_n.contr.Idx) : (dot_S1024x1024_S1024x64_S1024x64_1_0_0_1_n_n.lhsIdx x q 1).val = (q ⟨0, by decide⟩).val :=
  dot_S1024x1024_S1024x64_S1024x64_1_0_0_1_n_n.lhsIdx_val_of_single rfl x q
theorem pv_rhs0 (x : S1024x64.Idx) (q : dot_S1024x1024_S1024x64_S1024x64_1_0_0_1_n_n.contr.Idx) : (dot_S1024x1024_S1024x64_S1024x64_1_0_0_1_n_n.rhsIdx x q 0).val = (q ⟨0, by decide⟩).val :=
  dot_S1024x1024_S1024x64_S1024x64_1_0_0_1_n_n.rhsIdx_val_of_single rfl x q
/-- The right operand's column is the result's column. -/
theorem pv_rhs1 (x : S1024x64.Idx) (q : dot_S1024x1024_S1024x64_S1024x64_1_0_0_1_n_n.contr.Idx) : (dot_S1024x1024_S1024x64_S1024x64_1_0_0_1_n_n.rhsIdx x q 1).val = (x 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The weights–values product (plain: rows by columns) at `(i, d)`: the sum over the key coordinate. -/
theorem pv_apply (A : FVec Ideal S1024x1024 .bf16) (B : FVec Ideal S1024x64 .bf16) (i : Fin 1024) (d : Fin 64) :
    matmul dot_S1024x1024_S1024x64_S1024x64_1_0_0_1_n_n none A B (constant S1024x64 .f32 0x00000000#32) (ix2 i d)
      = ∑ j : Fin 1024, A (ix2 i j) * B (ix2 j d) := by
  refine (Ideal.matmul_constant_zero_apply dot_S1024x1024_S1024x64_S1024x64_1_0_0_1_n_n none A B (ix2 i d)).trans ?_
  rw [← Equiv.sum_comp (contrEquiv1 dot_S1024x1024_S1024x64_S1024x64_1_0_0_1_n_n 1024 rfl rfl).symm]
  refine Finset.sum_congr rfl fun j _ => ?_
  have hk := contrEquiv1_symm_val dot_S1024x1024_S1024x64_S1024x64_1_0_0_1_n_n 1024 rfl rfl j
  have el : dot_S1024x1024_S1024x64_S1024x64_1_0_0_1_n_n.lhsIdx (ix2 i d) ((contrEquiv1 dot_S1024x1024_S1024x64_S1024x64_1_0_0_1_n_n 1024 rfl rfl).symm j) = ix2 i j := funext fun a => Fin.ext (by
    match a with
    | ⟨0, _⟩ => exact pv_lhs0 _ _
    | ⟨1, _⟩ => exact (pv_lhs1 _ _).trans hk)
  have er : dot_S1024x1024_S1024x64_S1024x64_1_0_0_1_n_n.rhsIdx (ix2 i d) ((contrEquiv1 dot_S1024x1024_S1024x64_S1024x64_1_0_0_1_n_n 1024 rfl rfl).symm j) = ix2 j d := funext fun a => Fin.ext (by
    match a with
    | ⟨0, _⟩ => exact (pv_rhs0 _ _).trans hk
    | ⟨1, _⟩ => exact pv_rhs1 _ _)
  rw [el, er]

/-! ## Dropping the blocks' leading unit axes -/

/-- A `[1, 1, 1024, 64]` block read as `[1024, 64]`: entry `(i, d)` is the block's `(0, 0, i, d)`. -/
theorem flat_apply (x : Vec Ideal S1x1x1024x64 .f32) (h : S1x1x1024x64.ShapeCasts S1024x64) (i : Fin 1024) (d : Fin 64) :
    shapeCast S1024x64 x h (ix2 i d) = x (ix4 (0 : Fin 1) (0 : Fin 1) i d) :=
  shapeCast_apply x h (ix2 i d) (ix4 (0 : Fin 1) (0 : Fin 1) i d) (by
    rw [Shape.rowMajor_val_four, Shape.rowMajor_val_two]
    show (((0 : Nat) * 1 + 0) * 1024 + i.val) * 64 + d.val = i.val * 64 + d.val
    omega)

/-- The `[1, 1, 1024]` mask row read as `[1, 1024]`: entry `(0, j)` is the row's `(0, 0, j)`. -/
theorem flatRow_apply (x : Vec Ideal S1x1x1024 .f32) (h : S1x1x1024.ShapeCasts S1x1024) (j : Fin 1024) :
    shapeCast S1x1024 x h (ix2 (0 : Fin 1) j) = x (ix3 (0 : Fin 1) (0 : Fin 1) j) :=
  shapeCast_apply x h (ix2 (0 : Fin 1) j) (ix3 (0 : Fin 1) (0 : Fin 1) j) (by
    rw [Shape.rowMajor_val_three, Shape.rowMajor_val_two]
    show ((0 : Nat) * 1 + 0) * 1024 + j.val = 0 * 1024 + j.val
    omega)

/-! ## The scores block, the weights block and the output block -/

/-- The scores block of a point, from its query, key and mask blocks. -/
def scoreBlk (x0 x1 : Vec Ideal S1x1x1024x64 .f32) (x3 : Vec Ideal S1x1x1024 .f32) : FVec Ideal S1024x1024 .f32 :=
  addf (matmul dot_S1024x64_S1024x64_S1024x1024_1_1_0_0_n_n none
      (truncf .bf16 (mulf (shapeCast S1024x64 x0 shapeCasts_S1x1x1024x64_S1024x64) (broadcast S1024x64 (Scalar.ofBits .f32 0x3E000000#32))) bitsLt_bf16_f32)
      (truncf .bf16 (shapeCast S1024x64 x1 shapeCasts_S1x1x1024x64_S1024x64) bitsLt_bf16_f32)
      (constant S1024x1024 .f32 0x00000000#32))
    (broadcastTo S1024x1024 (shapeCast S1x1024 x3 shapeCasts_S1x1x1024_S1x1024) broadcasts_S1x1024_S1024x1024)

/-- The weights block of a scores block. -/
def weighBlk (s : FVec Ideal S1024x1024 .f32) : FVec Ideal S1024x1024 .f32 :=
  mulf (mulf s s) (broadcastTo S1024x1024
    (divf (broadcast S1024x1 (Scalar.ofBits .f32 0x3F800000#32))
      (addf (shapeCast S1024x1 (multiReduction .add [1] S1024 (mulf s s) 0x00000000#32 reduces_S1024x1024_S1024 (.inl rfl) rfl) shapeCasts_S1024_S1024x1)
        (broadcast S1024x1 (Scalar.ofBits .f32 0x358637BD#32))))
    broadcasts_S1024x1_S1024x1024)

/-- The output block of a weights block and a value block. -/
def outBlk (p : FVec Ideal S1024x1024 .f32) (x2 : Vec Ideal S1x1x1024x64 .f32) : FVec Ideal S1024x64 .f32 :=
  matmul dot_S1024x1024_S1024x64_S1024x64_1_0_0_1_n_n none (truncf .bf16 p bitsLt_bf16_f32)
    (truncf .bf16 (shapeCast S1024x64 x2 shapeCasts_S1x1x1024x64_S1024x64) bitsLt_bf16_f32) (constant S1024x64 .f32 0x00000000#32)

/-- The body's weights payload is the weights block of the scores block. -/
theorem pay2_eq (x0 x1 : Vec Ideal S1x1x1024x64 .f32) (x3 : Vec Ideal S1x1x1024 .f32) :
    Gen.k0_pay2 (F := Ideal) x0 x1 x3 = weighBlk (scoreBlk x0 x1 x3) := rfl

/-- The body's output payload is the output block of the weights payload and the value block. -/
theorem pay4_eq (x0 x1 x2 : Vec Ideal S1x1x1024x64 .f32) (x3 : Vec Ideal S1x1x1024 .f32) :
    Gen.k0_pay4 (F := Ideal) x0 x1 x2 x3 = outBlk (Gen.k0_pay2 (F := Ideal) x0 x1 x3) x2 := rfl

/-- A score: the scaled query row `i` against key row `j`, plus the mask term of key `j`. -/
theorem scoreBlk_apply (x0 x1 : Vec Ideal S1x1x1024x64 .f32) (x3 : Vec Ideal S1x1x1024 .f32) (i j : Fin 1024) :
    scoreBlk x0 x1 x3 (ix2 i j)
      = (∑ d : Fin 64, (x0 (ix4 (0 : Fin 1) (0 : Fin 1) i d) * Ideal.ofBits .f32 0x3E000000#32) * x1 (ix4 (0 : Fin 1) (0 : Fin 1) j d))
        + x3 (ix3 (0 : Fin 1) (0 : Fin 1) j) := by
  unfold scoreBlk
  refine congrArg₂ (· + ·) ((qk_apply _ _ i j).trans (Finset.sum_congr rfl fun d _ => ?_)) ?_
  · refine congrArg₂ (· * ·) ?_ (flat_apply x1 _ j d)
    exact congrArg (· * Ideal.ofBits .f32 0x3E000000#32) (flat_apply x0 _ i d)
  · exact (broadcastTo_1b_ab_apply _ broadcasts_S1x1024_S1024x1024 i j).trans (flatRow_apply x3 _ j)

/-- A weight: the row formula of the scores row. -/
theorem weighBlk_apply (s : FVec Ideal S1024x1024 .f32) (i j : Fin 1024) :
    weighBlk s (ix2 i j) = weight (fun j' => s (ix2 i j')) j := by
  unfold weighBlk weight rowDen
  refine congrArg (s (ix2 i j) * s (ix2 i j) * ·) ?_
  refine (Cert.Lib.Keepdims.broadcastTo_a1_ab_apply _ broadcasts_S1024x1_S1024x1024 i j).trans ?_
  refine congrArg (fun z => Ideal.div (Ideal.ofBits .f32 0x3F800000#32) (z + Ideal.ofBits .f32 0x358637BD#32)) ?_
  refine (Cert.Lib.Keepdims.shapeCast_a_a1_apply _ shapeCasts_S1024_S1024x1 i 0).trans ?_
  refine (Ideal.multiReduction_add_single (mulf s s) 0x00000000#32 reduces_S1024x1024_S1024 (.inl rfl) rfl (ix1 i)).trans ?_
  exact Finset.sum_congr rfl fun k _ => congrArg (fun x => s x * s x) (Cert.Lib.Keepdims.lift_axis1 reduces_S1024x1024_S1024 i k)

/-- An output entry: the weights row against a value column. -/
theorem outBlk_apply (p : FVec Ideal S1024x1024 .f32) (x2 : Vec Ideal S1x1x1024x64 .f32) (i : Fin 1024) (d : Fin 64) :
    outBlk p x2 (ix2 i d) = ∑ j : Fin 1024, p (ix2 i j) * x2 (ix4 (0 : Fin 1) (0 : Fin 1) j d) := by
  unfold outBlk
  exact (pv_apply _ _ i d).trans (Finset.sum_congr rfl fun j _ => congrArg (p (ix2 i j) * ·) (flat_apply x2 _ j d))

/-! ## The payloads at an index -/

/-- The scores row `i` of a point, from its blocks. -/
def rowScores (x0 x1 : Vec Ideal S1x1x1024x64 .f32) (x3 : Vec Ideal S1x1x1024 .f32) (i : Fin 1024) : Fin 1024 → EReal :=
  fun j' => (∑ d : Fin 64, (x0 (ix4 (0 : Fin 1) (0 : Fin 1) i d) * Ideal.ofBits .f32 0x3E000000#32) * x1 (ix4 (0 : Fin 1) (0 : Fin 1) j' d))
    + x3 (ix3 (0 : Fin 1) (0 : Fin 1) j')

theorem pay2_apply (x0 x1 : Vec Ideal S1x1x1024x64 .f32) (x3 : Vec Ideal S1x1x1024 .f32) (i j : Fin 1024) :
    Gen.k0_pay2 (F := Ideal) x0 x1 x3 (ix2 i j) = weight (rowScores x0 x1 x3 i) j := by
  rw [pay2_eq]
  refine (weighBlk_apply _ i j).trans ?_
  exact congrArg (fun s => weight s j) (funext fun j' => scoreBlk_apply x0 x1 x3 i j')

theorem pay4_apply (x0 x1 x2 : Vec Ideal S1x1x1024x64 .f32) (x3 : Vec Ideal S1x1x1024 .f32) (i : Fin 1024) (d : Fin 64) :
    Gen.k0_pay4 (F := Ideal) x0 x1 x2 x3 (ix2 i d)
      = ∑ j : Fin 1024, weight (rowScores x0 x1 x3 i) j * x2 (ix4 (0 : Fin 1) (0 : Fin 1) j d) := by
  rw [pay4_eq]
  refine (outBlk_apply _ x2 i d).trans ?_
  exact Finset.sum_congr rfl fun j _ => congrArg (· * x2 (ix4 (0 : Fin 1) (0 : Fin 1) j d)) (pay2_apply x0 x1 x3 i j)

end Cert.KernelIdeal.Point

end
-- ==== Proof.KernelArray.lean ====
/-
  From grid points to whole arrays. The grid is `(batch, head)`: point `(b, h)` stages the `[1024, 64]` blocks
  `(b, h, ·, ·)` of queries, keys and values and the mask row `(b, 0, ·)`, and writes back block `(b, h, ·, ·)` of the
  output and of the weights. Each written block is the restriction of ONE whole-array function of the arguments
  (`PowerAttn.attn`, `PowerAttn.probs`), and the 96 blocks tile the arrays, so the arrays end holding those functions.
  The mask row the kernel stages was computed before the launch as `(1 − mask) · (−10000)`, entry by entry.
-/
import proofs.«171787_j47691316855178_2_alg».proof.Proof.Gen.KernelIdeal.Value
import proofs.«171787_j47691316855178_2_alg».proof.Proof.KernelPoint
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.PowerAttn
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-! ## The index maps over the grid -/

/-- Decided over the 96 points: the weights window's block index is `(b, h, 0, 0)` with `b < 8`, `h < 12`; the output,
    query, key and value windows have the same block index, and the mask window's is `(b, 0, 0)`. -/
theorem idx_facts : ∀ t : Fin cfg0.N,
    win0_5.index t (0 : Fin 4) < 8 ∧ win0_5.index t (1 : Fin 4) < 12
    ∧ win0_5.index t (2 : Fin 4) = 0 ∧ win0_5.index t (3 : Fin 4) = 0
    ∧ win0_4.index t (0 : Fin 4) = win0_5.index t (0 : Fin 4) ∧ win0_4.index t (1 : Fin 4) = win0_5.index t (1 : Fin 4)
    ∧ win0_4.index t (2 : Fin 4) = 0 ∧ win0_4.index t (3 : Fin 4) = 0
    ∧ win0_0.index t (0 : Fin 4) = win0_5.index t (0 : Fin 4) ∧ win0_0.index t (1 : Fin 4) = win0_5.index t (1 : Fin 4)
    ∧ win0_0.index t (2 : Fin 4) = 0 ∧ win0_0.index t (3 : Fin 4) = 0
    ∧ win0_1.index t (0 : Fin 4) = win0_5.index t (0 : Fin 4) ∧ win0_1.index t (1 : Fin 4) = win0_5.index t (1 : Fin 4)
    ∧ win0_1.index t (2 : Fin 4) = 0 ∧ win0_1.index t (3 : Fin 4) = 0
    ∧ win0_2.index t (0 : Fin 4) = win0_5.index t (0 : Fin 4) ∧ win0_2.index t (1 : Fin 4) = win0_5.index t (1 : Fin 4)
    ∧ win0_2.index t (2 : Fin 4) = 0 ∧ win0_2.index t (3 : Fin 4) = 0
    ∧ win0_3.index t (0 : Fin 3) = win0_5.index t (0 : Fin 4) ∧ win0_3.index t (1 : Fin 3) = 0 ∧ win0_3.index t (2 : Fin 3) = 0 :=
  (by decide +kernel : ∀ t : Fin grid0.N, _)

/-- Every `(batch, head)` is some point's block index. -/
theorem idx_onto : ∀ (b : Fin 8) (h : Fin 12), ∃ t : Fin cfg0.N, win0_5.index t (0 : Fin 4) = b.val ∧ win0_5.index t (1 : Fin 4) = h.val :=
  (by decide +kernel : ∀ (b : Fin 8) (h : Fin 12), ∃ t : Fin grid0.N, win0_5.index t (0 : Fin 4) = b.val ∧ win0_5.index t (1 : Fin 4) = h.val)

/-! ## What a point leaves in its two output blocks, from its input blocks -/

/-- The weights block at `y`: the weight formula of batch `b`, head `h`, whenever the point's query, key and mask blocks
    are those of `(b, h)`. -/
theorem probBlock_apply (x0 x1 x2 : Vec Ideal S1x1x1024x64 .f32) (x3 : Vec Ideal S1x1x1024 .f32) (y : S1x1x1024x1024.Idx)
    (q k : SQ.Idx → EReal) (μ : Fin 8 → Fin 1024 → EReal) (b : Fin 8) (h : Fin 12) (i j : Fin 1024)
    (hi : (y 2).val = i.val) (hj : (y 3).val = j.val)
    (hq : ∀ (i : Fin 1024) (d : Fin 64), x0 (ix4 (0 : Fin 1) (0 : Fin 1) i d) = q (ix4 b h i d))
    (hk : ∀ (i : Fin 1024) (d : Fin 64), x1 (ix4 (0 : Fin 1) (0 : Fin 1) i d) = k (ix4 b h i d))
    (hμ : ∀ j : Fin 1024, x3 (ix3 (0 : Fin 1) (0 : Fin 1) j) = μ b j) :
    out0_5 x0 x1 x2 x3 y = probAt q k μ b h i j := by
  unfold out0_5
  rw [Value.canon5_eq]
  show k0_pay2 (View.ld x0 r0_0) (View.ld x1 r0_0) (View.ld x3 r0_1) (Value.ix5_0 y) = _
  rw [View.ld_unit_zero (S := S1x1x1024x64) hz4, View.ld_unit_zero (S := S1x1x1024x64) hz4, View.ld_unit_zero (S := S1x1x1024) hz3]
  have ey : Value.ix5_0 y = ix2 i j := funext fun a => Fin.ext (by match a with | ⟨0, _⟩ => exact hi | ⟨1, _⟩ => exact hj)
  rw [ey, Point.pay2_apply]
  unfold probAt
  refine congrArg (fun s => weight s j) (funext fun j' => ?_)
  unfold Point.rowScores score
  rw [hμ j']
  exact congrArg (· + μ b j') (Finset.sum_congr rfl fun d _ => by rw [hq, hk])

/-- The output block at `y`, likewise, with the value block that of `(b, h)`. -/
theorem outBlock_apply (x0 x1 x2 : Vec Ideal S1x1x1024x64 .f32) (x3 : Vec Ideal S1x1x1024 .f32) (y : S1x1x1024x64.Idx)
    (q k v : SQ.Idx → EReal) (μ : Fin 8 → Fin 1024 → EReal) (b : Fin 8) (h : Fin 12) (i : Fin 1024) (e : Fin 64)
    (hi : (y 2).val = i.val) (he : (y 3).val = e.val)
    (hq : ∀ (i : Fin 1024) (d : Fin 64), x0 (ix4 (0 : Fin 1) (0 : Fin 1) i d) = q (ix4 b h i d))
    (hk : ∀ (i : Fin 1024) (d : Fin 64), x1 (ix4 (0 : Fin 1) (0 : Fin 1) i d) = k (ix4 b h i d))
    (hv : ∀ (i : Fin 1024) (d : Fin 64), x2 (ix4 (0 : Fin 1) (0 : Fin 1) i d) = v (ix4 b h i d))
    (hμ : ∀ j : Fin 1024, x3 (ix3 (0 : Fin 1) (0 : Fin 1) j) = μ b j) :
    out0_4 x0 x1 x2 x3 y = outAt q k v μ b h i e := by
  unfold out0_4
  rw [Value.canon4_eq]
  show k0_pay4 (View.ld x0 r0_0) (View.ld x1 r0_0) (View.ld x2 r0_0) (View.ld x3 r0_1) (Value.ix4_0 y) = _
  rw [View.ld_unit_zero (S := S1x1x1024x64) hz4, View.ld_unit_zero (S := S1x1x1024x64) hz4, View.ld_unit_zero (S := S1x1x1024x64) hz4, View.ld_unit_zero (S := S1x1x1024) hz3]
  have ey : Value.ix4_0 y = ix2 i e := funext fun a => Fin.ext (by match a with | ⟨0, _⟩ => exact hi | ⟨1, _⟩ => exact he)
  rw [ey, Point.pay4_apply]
  unfold outAt probAt
  refine Finset.sum_congr rfl fun j _ => ?_
  rw [hv]
  refine congrArg (fun s => weight s j * v (ix4 b h j e)) (funext fun j' => ?_)
  unfold Point.rowScores score
  rw [hμ j']
  exact congrArg (· + μ b j') (Finset.sum_congr rfl fun d _ => by rw [hq, hk])

/-! ## The input blocks of a point are the arrays' blocks -/

/-- The mask terms as the region finds them, by batch and key position. -/
def maskRow (c : Dev nD) : Fin 8 → Fin 1024 → EReal :=
  fun b j => (V m c main_v5 : S8x1x1024.Idx → EReal) (ix3 b (0 : Fin 1) j)

theorem iblk0_apply (c : Dev nD) (t : Fin cfg0.N) (b : Fin 8) (h : Fin 12)
    (h0 : win0_0.index t (0 : Fin 4) = b.val) (h1 : win0_0.index t (1 : Fin 4) = h.val)
    (h2 : win0_0.index t (2 : Fin 4) = 0) (h3 : win0_0.index t (3 : Fin 4) = 0) (i : Fin 1024) (d : Fin 64) :
    (iblk m c 0 t : Vec Ideal S1x1x1024x64 .f32) (ix4 (0 : Fin 1) (0 : Fin 1) i d)
      = (V m c main_arg0 : S8x12x1024x64.Idx → EReal) (ix4 b h i d) := by
  unfold iblk
  rw [View.read_apply]
  refine congrArg (V m c main_arg0 : S8x12x1024x64.Idx → EReal) (funext fun a => Fin.ext ?_)
  match a with
  | ⟨0, _⟩ => show win0_0.index t (0 : Fin 4) * 1 + 1 * (0 : Nat) = b.val; omega
  | ⟨1, _⟩ => show win0_0.index t (1 : Fin 4) * 1 + 1 * (0 : Nat) = h.val; omega
  | ⟨2, _⟩ => show win0_0.index t (2 : Fin 4) * 1024 + 1 * i.val = i.val; omega
  | ⟨3, _⟩ => show win0_0.index t (3 : Fin 4) * 64 + 1 * d.val = d.val; omega

theorem iblk1_apply (c : Dev nD) (t : Fin cfg0.N) (b : Fin 8) (h : Fin 12)
    (h0 : win0_1.index t (0 : Fin 4) = b.val) (h1 : win0_1.index t (1 : Fin 4) = h.val)
    (h2 : win0_1.index t (2 : Fin 4) = 0) (h3 : win0_1.index t (3 : Fin 4) = 0) (i : Fin 1024) (d : Fin 64) :
    (iblk m c 1 t : Vec Ideal S1x1x1024x64 .f32) (ix4 (0 : Fin 1) (0 : Fin 1) i d)
      = (V m c main_arg1 : S8x12x1024x64.Idx → EReal) (ix4 b h i d) := by
  unfold iblk
  rw [View.read_apply]
  refine congrArg (V m c main_arg1 : S8x12x1024x64.Idx → EReal) (funext fun a => Fin.ext ?_)
  match a with
  | ⟨0, _⟩ => show win0_1.index t (0 : Fin 4) * 1 + 1 * (0 : Nat) = b.val; omega
  | ⟨1, _⟩ => show win0_1.index t (1 : Fin 4) * 1 + 1 * (0 : Nat) = h.val; omega
  | ⟨2, _⟩ => show win0_1.index t (2 : Fin 4) * 1024 + 1 * i.val = i.val; omega
  | ⟨3, _⟩ => show win0_1.index t (3 : Fin 4) * 64 + 1 * d.val = d.val; omega

theorem iblk2_apply (c : Dev nD) (t : Fin cfg0.N) (b : Fin 8) (h : Fin 12)
    (h0 : win0_2.index t (0 : Fin 4) = b.val) (h1 : win0_2.index t (1 : Fin 4) = h.val)
    (h2 : win0_2.index t (2 : Fin 4) = 0) (h3 : win0_2.index t (3 : Fin 4) = 0) (i : Fin 1024) (d : Fin 64) :
    (iblk m c 2 t : Vec Ideal S1x1x1024x64 .f32) (ix4 (0 : Fin 1) (0 : Fin 1) i d)
      = (V m c main_arg2 : S8x12x1024x64.Idx → EReal) (ix4 b h i d) := by
  unfold iblk
  rw [View.read_apply]
  refine congrArg (V m c main_arg2 : S8x12x1024x64.Idx → EReal) (funext fun a => Fin.ext ?_)
  match a with
  | ⟨0, _⟩ => show win0_2.index t (0 : Fin 4) * 1 + 1 * (0 : Nat) = b.val; omega
  | ⟨1, _⟩ => show win0_2.index t (1 : Fin 4) * 1 + 1 * (0 : Nat) = h.val; omega
  | ⟨2, _⟩ => show win0_2.index t (2 : Fin 4) * 1024 + 1 * i.val = i.val; omega
  | ⟨3, _⟩ => show win0_2.index t (3 : Fin 4) * 64 + 1 * d.val = d.val; omega

theorem iblk3_apply (c : Dev nD) (t : Fin cfg0.N) (b : Fin 8)
    (h0 : win0_3.index t (0 : Fin 3) = b.val) (h1 : win0_3.index t (1 : Fin 3) = 0)
    (h2 : win0_3.index t (2 : Fin 3) = 0) (j : Fin 1024) :
    (iblk m c 3 t : Vec Ideal S1x1x1024 .f32) (ix3 (0 : Fin 1) (0 : Fin 1) j) = maskRow m c b j := by
  unfold iblk maskRow
  rw [View.read_apply]
  refine congrArg (V m c main_v5 : S8x1x1024.Idx → EReal) (funext fun a => Fin.ext ?_)
  match a with
  | ⟨0, _⟩ => show win0_3.index t (0 : Fin 3) * 1 + 1 * (0 : Nat) = b.val; omega
  | ⟨1, _⟩ => show win0_3.index t (1 : Fin 3) * 1 + 1 * (0 : Nat) = 0; omega
  | ⟨2, _⟩ => show win0_3.index t (2 : Fin 3) * 1024 + 1 * j.val = j.val; omega

/-! ## What each point writes back is its block of the whole-array functions -/

theorem flushed5_eq (c : Dev nD) (t : Fin cfg0.N) :
    (dats m 0 c).flushed 5 t = ((cfg0.win 5).blk t).view.read (Elt Ideal)
      (probs (V m c main_arg0) (V m c main_arg1) (maskRow m c)) := by
  obtain ⟨hb, hh, e2, e3, f0, f1, f2, f3, q0, q1, q2, q3, k0, k1, k2, k3, v0, v1, v2, v3, m0, m1, m2⟩ := idx_facts t
  rw [Value.flushed5]
  funext y
  have hy0 : (y 0).val < 1 := (y 0).isLt
  have hy1 : (y 1).val < 1 := (y 1).isLt
  have hy2 : (y 2).val < 1024 := (y 2).isLt
  have hy3 : (y 3).val < 1024 := (y 3).isLt
  show out0_5 (iblk m c 0 t) (iblk m c 1 t) (iblk m c 2 t) (iblk m c 3 t) y
    = probs (V m c main_arg0) (V m c main_arg1) (maskRow m c) (((cfg0.win 5).blk t).view.emb y)
  refine (probBlock_apply (iblk m c 0 t) (iblk m c 1 t) (iblk m c 2 t) (iblk m c 3 t) y (V m c main_arg0) (V m c main_arg1)
    (maskRow m c) ⟨win0_5.index t (0 : Fin 4), hb⟩ ⟨win0_5.index t (1 : Fin 4), hh⟩ ⟨(y 2).val, hy2⟩ ⟨(y 3).val, hy3⟩ rfl rfl
    (iblk0_apply m c t _ _ q0 q1 q2 q3) (iblk1_apply m c t _ _ k0 k1 k2 k3) (iblk3_apply m c t _ m0 m1 m2)).trans ?_
  refine (probs_of_val _ _ _ _ _ _ _ _ ?_ ?_ ?_ ?_).symm
  · show win0_5.index t (0 : Fin 4) * 1 + 1 * (y 0).val = win0_5.index t (0 : Fin 4); omega
  · show win0_5.index t (1 : Fin 4) * 1 + 1 * (y 1).val = win0_5.index t (1 : Fin 4); omega
  · show win0_5.index t (2 : Fin 4) * 1024 + 1 * (y 2).val = (y 2).val; omega
  · show win0_5.index t (3 : Fin 4) * 1024 + 1 * (y 3).val = (y 3).val; omega

theorem flushed4_eq (c : Dev nD) (t : Fin cfg0.N) :
    (dats m 0 c).flushed 4 t = ((cfg0.win 4).blk t).view.read (Elt Ideal)
      (attn (V m c main_arg0) (V m c main_arg1) (V m c main_arg2) (maskRow m c)) := by
  obtain ⟨hb, hh, e2, e3, f0, f1, f2, f3, q0, q1, q2, q3, k0, k1, k2, k3, v0, v1, v2, v3, m0, m1, m2⟩ := idx_facts t
  rw [Value.flushed4]
  funext y
  have hy0 : (y 0).val < 1 := (y 0).isLt
  have hy1 : (y 1).val < 1 := (y 1).isLt
  have hy2 : (y 2).val < 1024 := (y 2).isLt
  have hy3 : (y 3).val < 64 := (y 3).isLt
  show out0_4 (iblk m c 0 t) (iblk m c 1 t) (iblk m c 2 t) (iblk m c 3 t) y
    = attn (V m c main_arg0) (V m c main_arg1) (V m c main_arg2) (maskRow m c) (((cfg0.win 4).blk t).view.emb y)
  refine (outBlock_apply (iblk m c 0 t) (iblk m c 1 t) (iblk m c 2 t) (iblk m c 3 t) y (V m c main_arg0) (V m c main_arg1)
    (V m c main_arg2) (maskRow m c) ⟨win0_5.index t (0 : Fin 4), hb⟩ ⟨win0_5.index t (1 : Fin 4), hh⟩ ⟨(y 2).val, hy2⟩ ⟨(y 3).val, hy3⟩ rfl rfl
    (iblk0_apply m c t _ _ q0 q1 q2 q3) (iblk1_apply m c t _ _ k0 k1 k2 k3) (iblk2_apply m c t _ _ v0 v1 v2 v3)
    (iblk3_apply m c t _ m0 m1 m2)).trans ?_
  refine (attn_of_val _ _ _ _ _ _ _ _ _ ?_ ?_ ?_ ?_).symm
  · show win0_4.index t (0 : Fin 4) * 1 + 1 * (y 0).val = win0_5.index t (0 : Fin 4); omega
  · show win0_4.index t (1 : Fin 4) * 1 + 1 * (y 1).val = win0_5.index t (1 : Fin 4); omega
  · show win0_4.index t (2 : Fin 4) * 1024 + 1 * (y 2).val = (y 2).val; omega
  · show win0_4.index t (3 : Fin 4) * 64 + 1 * (y 3).val = (y 3).val; omega

/-! ## The blocks tile the arrays -/

theorem mem_blk5 (t : Fin cfg0.N) (i : S8x12x1024x1024.Idx) :
    i ∈ ((cfg0.win 5).blk t).view.set ↔ ∀ a : Fin 4, win0_5.index t a * S1x1x1024x1024.size a ≤ (i a).val
      ∧ (i a).val < win0_5.index t a * S1x1x1024x1024.size a + S1x1x1024x1024.size a := by
  show i ∈ ((View.whole main_v6_1).slice (win0_5.rect t)).set ↔ _
  rw [View.set_slice_whole, Rect.mem_set_unit]
  exact Iff.rfl

theorem mem_blk4 (t : Fin cfg0.N) (i : S8x12x1024x64.Idx) :
    i ∈ ((cfg0.win 4).blk t).view.set ↔ ∀ a : Fin 4, win0_4.index t a * S1x1x1024x64.size a ≤ (i a).val
      ∧ (i a).val < win0_4.index t a * S1x1x1024x64.size a + S1x1x1024x64.size a := by
  show i ∈ ((View.whole main_v6_0).slice (win0_4.rect t)).set ↔ _
  rw [View.set_slice_whole, Rect.mem_set_unit]
  exact Iff.rfl

/-- Index `(b, h, ·, ·)` of the weights lies in the block of the point whose block index is `(b, h, 0, 0)`. -/
theorem cover5 (i : S8x12x1024x1024.Idx) :
    ∃ t : Fin cfg0.N, (cfg0.win 5).flush t = true ∧ i ∈ ((cfg0.win 5).blk t).view.set := by
  have hi0 : (i 0).val < 8 := (i 0).isLt
  have hi1 : (i 1).val < 12 := (i 1).isLt
  have hi2 : (i 2).val < 1024 := (i 2).isLt
  have hi3 : (i 3).val < 1024 := (i 3).isLt
  obtain ⟨t, ht0, ht1⟩ := idx_onto ⟨(i 0).val, hi0⟩ ⟨(i 1).val, hi1⟩
  have ht0' : win0_5.index t (0 : Fin 4) = (i 0).val := ht0
  have ht1' : win0_5.index t (1 : Fin 4) = (i 1).val := ht1
  obtain ⟨hb, hh, e2, e3, f0, f1, f2, f3, q0, q1, q2, q3, k0, k1, k2, k3, v0, v1, v2, v3, m0, m1, m2⟩ := idx_facts t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 1024 ≤ (i 2).val ∧ (i 2).val < win0_5.index t (2 : Fin 4) * 1024 + 1024; omega
  | ⟨3, _⟩ => show win0_5.index t (3 : Fin 4) * 1024 ≤ (i 3).val ∧ (i 3).val < win0_5.index t (3 : Fin 4) * 1024 + 1024; omega

theorem cover4 (i : S8x12x1024x64.Idx) :
    ∃ t : Fin cfg0.N, (cfg0.win 4).flush t = true ∧ i ∈ ((cfg0.win 4).blk t).view.set := by
  have hi0 : (i 0).val < 8 := (i 0).isLt
  have hi1 : (i 1).val < 12 := (i 1).isLt
  have hi2 : (i 2).val < 1024 := (i 2).isLt
  have hi3 : (i 3).val < 64 := (i 3).isLt
  obtain ⟨t, ht0, ht1⟩ := idx_onto ⟨(i 0).val, hi0⟩ ⟨(i 1).val, hi1⟩
  have ht0' : win0_5.index t (0 : Fin 4) = (i 0).val := ht0
  have ht1' : win0_5.index t (1 : Fin 4) = (i 1).val := ht1
  obtain ⟨hb, hh, e2, e3, f0, f1, f2, f3, q0, q1, q2, q3, k0, k1, k2, k3, v0, v1, v2, v3, m0, m1, m2⟩ := idx_facts t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 64 ≤ (i 3).val ∧ (i 3).val < win0_4.index t (3 : Fin 4) * 64 + 64; omega

/-! ## The mask row the region finds -/

/-- Before the launch the program converts the integer mask, subtracts it from one, multiplies by `−10000` and
    inserts a unit axis. -/
theorem V_mask (c : Dev nD) : (V m c main_v5 : S8x1x1024.Idx → EReal)
    = broadcastInDim S8x1x1024 ![0, 2] Facts₀.bcast_S8x1024_S8x1x1024_0_2
        (mulf (subf (broadcastInDim S8x1024 ![] Facts₀.bcast_S_S8x1024 (constant (F := Ideal) S_ .f32 0x3F800000#32))
            (sitofp .f32 (m ((c : Thread nD τ).loc main_arg3))))
          (broadcastInDim S8x1024 ![] Facts₀.bcast_S_S8x1024 (constant (F := Ideal) S_ .f32 0xC61C4000#32))) := by
  dsimp only [Gen.V, Gen.hostOps0]; after_results

theorem maskRow_eq (c : Dev nD) : maskRow m c = maskTerm (m ((c : Thread nD τ).loc main_arg3)) := by
  funext b j
  unfold maskRow maskTerm
  rw [V_mask]
  refine (broadcastInDim_apply _ Facts₀.bcast_S8x1024_S8x1x1024_0_2 _ (ix3 b (0 : Fin 1) j) (ix2 b j) (fun a => ?_)).trans ?_
  · match a with
    | ⟨0, _⟩ => show b.val = if (8 : Nat) = 1 then 0 else b.val; rw [if_neg (by decide)]
    | ⟨1, _⟩ => show j.val = if (1024 : Nat) = 1 then 0 else j.val; rw [if_neg (by decide)]
  · have hA : (broadcastInDim S8x1024 ![] Facts₀.bcast_S_S8x1024 (constant (F := Ideal) S_ .f32 0x3F800000#32)) (ix2 b j)
        = Ideal.ofBits .f32 0x3F800000#32 :=
      broadcastInDim_apply _ Facts₀.bcast_S_S8x1024 _ (ix2 b j) ix0 (fun a => a.elim0)
    have hB : (broadcastInDim S8x1024 ![] Facts₀.bcast_S_S8x1024 (constant (F := Ideal) S_ .f32 0xC61C4000#32)) (ix2 b j)
        = Ideal.ofBits .f32 0xC61C4000#32 :=
      broadcastInDim_apply _ Facts₀.bcast_S_S8x1024 _ (ix2 b j) ix0 (fun a => a.elim0)
    rw [mulf_apply, subf_apply, hA, hB]
    rfl

/-! ## The arrays after the run -/

theorem final5 (c : Dev nD) : (dats m 0 c).arrAt 5 cfg0.N
    = probs (m ((c : Thread nD τ).loc main_arg0)) (m ((c : Thread nD τ).loc main_arg1)) (maskTerm (m ((c : Thread nD τ).loc main_arg3))) := by
  refine ((dats m 0 c).arrAt_eq_of_cover 5 (probs (V m c main_arg0) (V m c main_arg1) (maskRow m c))
    (fun t _ => flushed5_eq m c t) cover5).trans ?_
  rw [V_main_arg0 m c, V_main_arg1 m c, maskRow_eq m c]

theorem final4 (c : Dev nD) : (dats m 0 c).arrAt 4 cfg0.N
    = attn (m ((c : Thread nD τ).loc main_arg0)) (m ((c : Thread nD τ).loc main_arg1)) (m ((c : Thread nD τ).loc main_arg2))
        (maskTerm (m ((c : Thread nD τ).loc main_arg3))) := by
  refine ((dats m 0 c).arrAt_eq_of_cover 4 (attn (V m c main_arg0) (V m c main_arg1) (V m c main_arg2) (maskRow m c))
    (fun t _ => flushed4_eq m c t) cover4).trans ?_
  rw [V_main_arg0 m c, V_main_arg1 m c, V_main_arg2 m c, maskRow_eq m c]

/-- The kernel's run: the output and the weights end at the whole-array functions of the arguments, the arguments
    unchanged. -/
theorem run : θ_run defs (onTc (τ := τ) (main (F := Ideal))) ⟨m, fun _ => 0, ρ⟩ fun r => ∀ c : Dev nD,
      r.2.mem ((c : Thread nD τ).loc main_v6_0)
        = attn (m ((c : Thread nD τ).loc main_arg0)) (m ((c : Thread nD τ).loc main_arg1)) (m ((c : Thread nD τ).loc main_arg2))
            (maskTerm (m ((c : Thread nD τ).loc main_arg3)))
      ∧ r.2.mem ((c : Thread nD τ).loc main_v6_1)
        = probs (m ((c : Thread nD τ).loc main_arg0)) (m ((c : Thread nD τ).loc main_arg1)) (maskTerm (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Whole

end
-- ==== Proof.Reference.lean ====
/-
  The reference, one operation at a time, is the same pair of whole-array functions. Its scores are the contraction of
  a query row with a key row, THEN scaled by `1/8`, plus the mask term; its weights are the squared score DIVIDED by the
  row's sum of squares plus the guard; its output contracts the weights with the values over the key position. The
  scaling moves inside the contraction (`PowerAttn.scaled_contraction`) and the quotient is the product with the
  reciprocal (`PowerAttn.weight_eq_div`: the denominator is positive); the rest is reading each stage at an index.
-/
import proofs.«171787_j47691316855178_2_alg».proof.Proof.Gen.ReferenceIdeal.Read
import proofs.«171787_j47691316855178_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.PowerAttn

variable (x0 x1 x2 : (⟨S8x12x1024x64, .f32⟩ : BufTy).Contents (Elt Ideal)) (x3 : (⟨S8x1024, .i32⟩ : BufTy).Contents (Elt Ideal))

/-- The reference's masked score at `(b, h, i, j)` is the score with the query row scaled first. -/
theorem score_eq (b : Fin 8) (h : Fin 12) (i j : Fin 1024) :
    val_main_v10 (F := Ideal) x0 x1 x3 (ix4 b h i j) = score x0 x1 (maskTerm x3) b h i j := by
  have el : ∀ k : Fin 64, lidx_main_v0 (ix4 b h i j) k = ix4 b h i k := fun k => funext fun a => Fin.ext (by
    match a with | ⟨0, _⟩ => rfl | ⟨1, _⟩ => rfl | ⟨2, _⟩ => rfl | ⟨3, _⟩ => rfl)
  have er : ∀ k : Fin 64, ridx_main_v0 (ix4 b h i j) k = ix4 b h j k := fun k => funext fun a => Fin.ext (by
    match a with | ⟨0, _⟩ => rfl | ⟨1, _⟩ => rfl | ⟨2, _⟩ => rfl | ⟨3, _⟩ => rfl)
  have em : idx_main_v6 (idx_main_v9 (ix4 b h i j)) = ix2 b j := funext fun a => Fin.ext (by
    match a with | ⟨0, _⟩ => rfl | ⟨1, _⟩ => rfl)
  rw [val_main_v10_apply, val_main_v2_apply, val_main_v0_apply, val_main_v1_apply, val_main_cst_apply, val_main_v9_apply,
    val_main_v8_apply, val_main_v6_apply, val_main_v5_apply, val_main_v4_apply, val_main_cst_0_apply, val_main_v3_apply,
    val_main_v7_apply, val_main_cst_1_apply]
  simp only [el, er, em]
  exact congrArg (· + maskTerm x3 b j) (scaled_contraction _ _)

/-- The reference's denominator at `(b, h, i, ·)` is the row's sum of squared scores plus the guard. -/
theorem den_eq (b : Fin 8) (h : Fin 12) (i j : Fin 1024) :
    val_main_v16 (F := Ideal) x0 x1 x3 (ix4 b h i j) = rowDen (fun j' => score x0 x1 (maskTerm x3) b h i j') := by
  have ek : ∀ k : Fin 1024, idx_main_v12 (idx_main_v13 (idx_main_v16 (ix4 b h i j))) k = ix4 b h i k := fun k =>
    funext fun a => Fin.ext (by match a with | ⟨0, _⟩ => rfl | ⟨1, _⟩ => rfl | ⟨2, _⟩ => rfl | ⟨3, _⟩ => rfl)
  rw [val_main_v16_apply, val_main_v15_apply, val_main_v13_apply, val_main_v12_apply, val_main_cst_2_apply,
    val_main_v14_apply, val_main_cst_3_apply]
  simp only [ek, val_main_v11_apply, score_eq]
  unfold rowDen
  refine congrArg (· + Ideal.ofBits .f32 0x358637BD#32) ?_
  exact (congrArg (· + _) Ideal.ofBits_zero_f32).trans (zero_add _)

/-- The reference's weights are the weight array. -/
theorem probs_eq : val_main_v17 (F := Ideal) x0 x1 x3 = probs x0 x1 (maskTerm x3) := by
  funext x
  obtain ⟨b, h, i, j, rfl⟩ : ∃ (b : Fin 8) (h : Fin 12) (i j : Fin 1024), x = ix4 b h i j := ⟨x 0, x 1, x 2, x 3, eq_ix4 x⟩
  rw [val_main_v17_apply, val_main_v11_apply, score_eq, den_eq]
  exact weight_eq_div (fun j' => score x0 x1 (maskTerm x3) b h i j') j

/-- The reference's output is the output array. -/
theorem attn_eq : val_main_v18 (F := Ideal) x0 x1 x2 x3 = attn x0 x1 x2 (maskTerm x3) := by
  funext x
  obtain ⟨b, h, i, d, rfl⟩ : ∃ (b : Fin 8) (h : Fin 12) (i : Fin 1024) (d : Fin 64), x = ix4 b h i d := ⟨x 0, x 1, x 2, x 3, eq_ix4 x⟩
  have el : ∀ k : Fin 1024, lidx_main_v18 (ix4 b h i d) k = ix4 b h i k := fun k => funext fun a => Fin.ext (by
    match a with | ⟨0, _⟩ => rfl | ⟨1, _⟩ => rfl | ⟨2, _⟩ => rfl | ⟨3, _⟩ => rfl)
  have er : ∀ k : Fin 1024, ridx_main_v18 (ix4 b h i d) k = ix4 b h k d := fun k => funext fun a => Fin.ext (by
    match a with | ⟨0, _⟩ => rfl | ⟨1, _⟩ => rfl | ⟨2, _⟩ => rfl | ⟨3, _⟩ => rfl)
  rw [val_main_v18_apply, probs_eq]
  simp only [el, er]
  rfl

end Cert.ReferenceIdeal.RefValue

end
-- ==== Proof.lean ====
/-
  Power attention (exponent two) in one gridded kernel against its array-language reference, equal as extended reals.

  Both programs compute, for every batch `b`, head `h`, query `i` and key `j`, the masked score
  `s j = (q[b,h,i,·] · k[b,h,j,·]) / 8 + (1 − mask[b,j]) · (−10000)`, the weight `s j ² / (∑ j', s j' ² + ε)` and the output row
  `∑ j, weight j · v[b,h,j,·]`. The kernel visits one `(b, h)` per grid point, scales the query block before the
  query–key product, and multiplies the squared scores by the reciprocal of the row's denominator; the reference
  scales the product and divides. The two spellings are one function on all extended reals (Proof/Spec.lean: the
  scale `1/8` is nonnegative and finite, so it distributes over the contraction; the denominator is positive, so the
  quotient is the product with the reciprocal), so the precondition is never opened.
  Proof/KernelPoint.lean reads the kernel body's two payloads at an index; Proof/KernelArray.lean shows the 96 written
  blocks are the restrictions of the whole-array functions and tile the arrays; Proof/Reference.lean reads the
  reference's operations at an index. The frames of the two kernel programs are the generated ones; the reference's
  frame is its run with the results dropped; nothing was rewritten between the kernel and its idealization.
-/
import proofs.«171787_j47691316855178_2_alg».proof.Defs
import proofs.«171787_j47691316855178_2_alg».proof.Proof.Gen.Kernel
import proofs.«171787_j47691316855178_2_alg».proof.Proof.Gen.Kernel.Frame
import proofs.«171787_j47691316855178_2_alg».proof.Proof.Gen.KernelIdeal
import proofs.«171787_j47691316855178_2_alg».proof.Proof.Gen.KernelIdeal.Frame
import proofs.«171787_j47691316855178_2_alg».proof.Proof.Gen.KernelIdeal.Value
import proofs.«171787_j47691316855178_2_alg».proof.Proof.Gen.ReferenceIdeal
import proofs.«171787_j47691316855178_2_alg».proof.Proof.Gen.ReferenceIdeal.Run
import proofs.«171787_j47691316855178_2_alg».proof.Proof.Gen.ReferenceIdeal.Read
import proofs.«171787_j47691316855178_2_alg».proof.Proof.Gen.Pre_finite_inputs
import proofs.«171787_j47691316855178_2_alg».proof.Proof.KernelArray
import proofs.«171787_j47691316855178_2_alg».proof.Proof.Reference
import Idealize.ShloMosaic.Adequacy
import Idealize.ShloMosaic.Init

noncomputable section

namespace Cert.Proof

open Idealize.ShloMosaic Idealize.ShloMosaic.TcCoe Idealize.SL.Sem Cert.PowerAttn

theorem frame_k : Cert.frame_Kernel := fun m ρ _ => Cert.Kernel.Gen.frame m ρ

theorem frame_ki : Cert.frame_KernelIdeal := fun m ρ _ => Cert.KernelIdeal.Gen.frame m ρ

/-- The reference's run leaves its arguments as launched. -/
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel is the kernel's own text read at the extended reals: no rewrite to account for. -/
theorem preserves : Cert.preserves_Kernel_KernelIdeal := trivial

/-- From memories agreeing on the arguments, the kernel's output and weights arrays end at `attn` and `probs` of the
    arguments, and so do the reference's two results. -/
theorem algebraic : Cert.algebraic_KernelIdeal_ReferenceIdeal := by
  intro m ρ m' ρ' _ hagree
  refine ⟨fun c => attn (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (maskTerm (m ((c.tc : Thread Cert.KernelIdeal.nD Cert.KernelIdeal.τ).loc Cert.KernelIdeal.main_arg3))),
    fun c => probs (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (maskTerm (m ((c.tc : Thread Cert.KernelIdeal.nD Cert.KernelIdeal.τ).loc Cert.KernelIdeal.main_arg3))),
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, Cert.ReferenceIdeal.RefValue.attn_eq, (hagree c).1, (hagree c).2.1,
      (hagree c).2.2.1, (hagree c).2.2.2]
  · rw [Cert.ReferenceIdeal.Read.val_main_v17_eq, Cert.ReferenceIdeal.RefValue.probs_eq, (hagree c).1, (hagree c).2.1,
      (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
